-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S1x128, .f32⟩
  | .hbm, ⟨6, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The kernel's run with its result array NAMED.

  @main is two kernel regions with one host operation between them: the linear transform writes the transformed
  features; the bias is recast as a row; the aggregation reads the adjacency, the transformed features and the bias row and
  writes the result. Every weakly fair execution terminates without a fault; the final memory holds, at the result buffer,
  what the second region's write-backs leave of its output window's array, and each argument array as launched.
  The buffer contents at the three segment boundaries are a fold through @main; the result buffer is one of the second
  region's arrays, so the fold's last stage reads it as that region's folded write-backs.
-/
import proofs.«151774_g7516192768197_cont_9to1c4b_734_2_alg».proof.Proof.Gen.KernelIdeal.Frame

set_option maxRecDepth 16384

noncomputable section

namespace Cert.GraphConv.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last boundary the result buffer holds the aggregation region's output array after all its write-backs. -/
theorem last_result (c : Dev nD) : W3 m ρ c (Proc.devRef .tc main_v2) = (dat1 (V2 m ρ) c).arrAt 3 cfg1.N :=
  W3_arr m ρ c 3

set_option backward.isDefEq.respectTransparency.types false in
/-- Every weakly fair execution of @main terminates, nothing faulting, with the result buffer at the aggregation region's
    folded write-backs and the four argument arrays as launched. -/
theorem run_named : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (last_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.GraphConv.Kernel

end
-- ==== Proof.Spec.lean ====
/-
  The graph-convolution layer as ONE function of its four argument arrays, over the extended reals.

  Node features `x : [10000, 128]`, a dense adjacency `adj : [10000, 10000]`, a weight `W : [128, 128]` and a bias
  `b : [128]`. The layer first maps every node's feature row through the weight's transpose,
      lin x W k j = Σ_l x[k, l] · W[j, l],
  then sums the transformed rows of a node's neighbours with the adjacency's weights, adds the bias and clamps below at zero,
      layer adj x W b (i, j) = max ((Σ_k adj[i, k] · lin x W k j) + b[j]) 0.
  Both programs compute exactly this; no re-association of the sums is involved, so nothing here needs finiteness.
  The zero of the clamp is kept as the float word it is printed as.
-/
import Idealize.ShloMosaic.PureOps.Ideal
import Idealize.ShloMosaic.Lib.ValueIdx

noncomputable section

namespace Cert.GraphConv

open Idealize.ShloMosaic Idealize.ShloMosaic.ValueIdx

/-- The linear transform at node `k`, output feature `j`: the inner product of the node's input row with row `j` of the weight. -/
def lin (x : (⟨2, ![10000, 128]⟩ : Shape).Idx → EReal) (W : (⟨2, ![128, 128]⟩ : Shape).Idx → EReal)
    (k : Fin 10000) (j : Fin 128) : EReal :=
  ∑ l : Fin 128, x (ix2 k l) * W (ix2 j l)

/-- The aggregation at node `i`, feature `j`, of an already transformed feature array `w` and a bias row `b`:
    the adjacency-weighted sum over all nodes, plus the bias, clamped below at zero. -/
def agg (adj : (⟨2, ![10000, 10000]⟩ : Shape).Idx → EReal) (w : Fin 10000 → Fin 128 → EReal) (b : Fin 128 → EReal)
    (i : Fin 10000) (j : Fin 128) : EReal :=
  max ((∑ k : Fin 10000, adj (ix2 i k) * w k j) + b j) (Ideal.ofBits .f32 0x00000000#32)

/-- The whole layer, index by index. -/
def layer (adj : (⟨2, ![10000, 10000]⟩ : Shape).Idx → EReal) (x : (⟨2, ![10000, 128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => agg adj (lin x W) (fun j => b (ix1 j)) (i 0) (i 1)

end Cert.GraphConv

end
-- ==== Proof.Payloads.lean ====
/-
  The two kernel bodies' arithmetic, read at an index over the extended reals.

  The linear-transform body stores ONE value: the matrix product, into a zero accumulator, of the loaded feature block with
  the TRANSPOSE of the loaded weight block — entry (k, j) is Σ_l x[k, l] · W[j, l]. The aggregation body stores ONE value:
  the product of the loaded adjacency rows with the loaded transformed features (a contraction over all 10000 nodes), plus
  the bias row repeated down the block's 400 rows, clamped below at a zero splat — entry (p, j) is
  max ((Σ_k a[p, k] · w[k, j]) + b[0, j]) 0.
  A matrix product with one contracted axis is a sum over that axis's coordinate once the contraction index is traded for
  it; the remaining work is naming, for each operand, the entry the dimension numbers pick.
-/
import proofs.«151774_g7516192768197_cont_9to1c4b_734_2_alg».proof.Proof.Gen.KernelIdeal.Skeleton
import proofs.«151774_g7516192768197_cont_9to1c4b_734_2_alg».proof.Proof.Spec
import Idealize.ShloMosaic.Lib.Pipeline.Value
import Idealize.ShloMosaic.Lib.ValueIdx
import Idealize.ShloMosaic.PureOps.Ideal.Laws

noncomputable section

namespace Cert.GraphConv.Kernel

open Cert.KernelIdeal Cert.KernelIdeal.Gen Idealize.ShloMosaic Idealize.ShloMosaic.ValueIdx Cert.GraphConv

/-! ## The linear transform's contraction: features [10000, 128] against the transposed weight [128, 128] -/

theorem lin_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lin_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem lin_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem lin_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The transposed weight at (l, j) is the weight at (j, l). -/
theorem weight_transposed (x1 : Vec Ideal S128x128 .f32) (l j : Fin 128) :
    transpose S128x128 [1, 0] x1 transposes_S128x128_p1_0_S128x128 (ix2 l j) = x1 (ix2 j l) :=
  transpose_apply [1, 0] x1 transposes_S128x128_p1_0_S128x128 (ix2 l j) (ix2 j l) (fun b => match b with
    | ⟨0, _⟩ => rfl
    | ⟨1, _⟩ => rfl)

/-- The linear-transform body's stored value at (k, j): the specification's `lin` of the two loaded blocks. -/
theorem linear_payload (x0 : Vec Ideal S10000x128 .f32) (x1 : Vec Ideal S128x128 .f32) (k : Fin 10000) (j : Fin 128) :
    k0_pay1 (F := Ideal) x0 x1 (ix2 k j) = lin x0 x1 k j := by
  unfold k0_pay1
  refine (Ideal.matmul_constant_zero_apply dot_S10000x128_S128x128_S10000x128_1_0_0_1_n_n none x0
    (transpose S128x128 [1, 0] x1 transposes_S128x128_p1_0_S128x128) (ix2 k j)).trans ?_
  rw [← Equiv.sum_comp (contrEquiv1 dot_S10000x128_S128x128_S10000x128_1_0_0_1_n_n 128 rfl rfl).symm]
  unfold lin
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 k j) ((contrEquiv1 dot_S10000x128_S128x128_S10000x128_1_0_0_1_n_n 128 rfl rfl).symm l) = ix2 k l := funext fun a => Fin.ext (by
    match a with
    | ⟨0, _⟩ => exact lin_lhs0 _ _
    | ⟨1, _⟩ => exact (lin_lhs1 _ _).trans hl)
  have er : dot_S10000x128_S128x128_S10000x128_1_0_0_1_n_n.rhsIdx (ix2 k j) ((contrEquiv1 dot_S10000x128_S128x128_S10000x128_1_0_0_1_n_n 128 rfl rfl).symm l) = ix2 l j := funext fun a => Fin.ext (by
    match a with
    | ⟨0, _⟩ => exact (lin_rhs0 _ _).trans hl
    | ⟨1, _⟩ => exact lin_rhs1 _ _)
  rw [el, er, weight_transposed]

/-! ## The aggregation's contraction: adjacency rows [400, 10000] against the transformed features [10000, 128] -/

theorem agg_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The adjacency rows times the transformed features, into a zero accumulator, at (p, j). -/
theorem agg_product (x0 : FVec Ideal S400x10000 .f32) (x1 : FVec Ideal S10000x128 .f32) (p : Fin 400) (j : Fin 128) :
    matmul (F := Ideal) dot_S400x10000_S10000x128_S400x128_1_0_0_1_n_n none x0 x1 (constant S400x128 .f32 0x00000000#32) (ix2 p j)
      = ∑ k : Fin 10000, x0 (ix2 p k) * x1 (ix2 k j) := by
  refine (Ideal.matmul_constant_zero_apply dot_S400x10000_S10000x128_S400x128_1_0_0_1_n_n none x0 x1 (ix2 p j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j) ((contrEquiv1 dot_S400x10000_S10000x128_S400x128_1_0_0_1_n_n 10000 rfl rfl).symm k) = ix2 p k := funext fun a => Fin.ext (by
    match a with
    | ⟨0, _⟩ => exact agg_lhs0 _ _
    | ⟨1, _⟩ => exact (agg_lhs1 _ _).trans hk)
  have er : dot_S400x10000_S10000x128_S400x128_1_0_0_1_n_n.rhsIdx (ix2 p j) ((contrEquiv1 dot_S400x10000_S10000x128_S400x128_1_0_0_1_n_n 10000 rfl rfl).symm k) = ix2 k j := funext fun a => Fin.ext (by
    match a with
    | ⟨0, _⟩ => exact (agg_rhs0 _ _).trans hk
    | ⟨1, _⟩ => exact agg_rhs1 _ _)
  rw [el, er]

/-- The bias row repeated down the block's rows, at (p, j), is the row's entry (0, j). -/
theorem bias_repeated (x4 : Vec Ideal S1x128 .f32) (p : Fin 400) (j : Fin 128) :
    broadcastTo S400x128 x4 broadcasts_S1x128_S400x128 (ix2 p j) = x4 (ix2 (0 : Fin 1) j) :=
  broadcastTo_apply x4 broadcasts_S1x128_S400x128 (ix2 p j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])

/-- The aggregation body's stored value at row p of the block, feature j. -/
theorem aggregate_payload (x0 : Vec Ideal S400x10000 .f32) (x1 : Vec Ideal S10000x128 .f32) (x4 : Vec Ideal S1x128 .f32)
    (p : Fin 400) (j : Fin 128) :
    k1_pay1 (F := Ideal) x0 x1 x4 (ix2 p j)
      = max ((∑ k : Fin 10000, x0 (ix2 p k) * x1 (ix2 k j)) + x4 (ix2 (0 : Fin 1) j)) (Ideal.ofBits .f32 0x00000000#32) := by
  unfold k1_pay1
  rw [shapeCast_self, shapeCast_self]
  show max (matmul (F := Ideal) (φ₁ := .f32) (φ₂ := .f32) dot_S400x10000_S10000x128_S400x128_1_0_0_1_n_n none x0 x1 (constant S400x128 .f32 0x00000000#32) (ix2 p j)
      + broadcastTo S400x128 x4 broadcasts_S1x128_S400x128 (ix2 p j)) (Ideal.ofBits .f32 0x00000000#32) = _
  rw [agg_product, bias_repeated]

end Cert.GraphConv.Kernel

end
-- ==== Proof.Linear.lean ====
/-
  What the linear-transform region leaves in its output array.

  The region has no grid: one point, every window's block the whole array. At that point the body stores the matrix
  product of the feature array with the transposed weight array, and the write-back puts that block — the whole array —
  in place. So whatever the TensorCore's buffers hold when the region is entered (`V`), the output array ends at
      (k, j) ↦ Σ_l V[features][k, l] · V[weight][j, l].
-/
import proofs.«151774_g7516192768197_cont_9to1c4b_734_2_alg».proof.Proof.Gen.KernelIdeal.Frame
import proofs.«151774_g7516192768197_cont_9to1c4b_734_2_alg».proof.Proof.Payloads
import Idealize.ShloMosaic.Lib.Pipeline.Value

set_option maxRecDepth 16384

noncomputable section

namespace Cert.GraphConv.Kernel

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

theorem origin2 : (![0, 0] : Fin 2 → Nat) = fun _ => 0 := funext fun a => by fin_cases a <;> rfl

/-- The transformed features as a function of the buffers at the region's entry. -/
def linOf (c : Dev nD) : S10000x128.Idx → EReal :=
  fun i => lin (V c main_arg0) (V c main_arg2) (i 0) (i 1)

/-- The body's stored value at an index `y` of the block, when the loaded blocks are the arrays `X`, `Wt` themselves and
    `y` sits at the array index `i`. -/
theorem lin_at (X : S10000x128.Idx → EReal) (Wt : S128x128.Idx → EReal)
    (x0 : Vec Ideal S10000x128 .f32) (x1 : Vec Ideal S128x128 .f32) (y i : S10000x128.Idx)
    (h0 : x0 = X) (h1 : x1 = Wt) (hi : i = y) :
    k0_pay1 (F := Ideal) x0 x1 y = lin X Wt (i 0) (i 1) := by
  subst h0 h1 hi
  exact (congrArg (k0_pay1 (F := Ideal) x0 x1) (eq_ix2 i)).trans (linear_payload x0 x1 (i 0) (i 1))

/-- Every window of the gridless region sits at block index (0, 0). -/
theorem lin_idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the one point writes back is the whole of `linOf`. -/
theorem lin_flushed (c : Dev nD) (t : Fin cfg0.N) :
    (dat0 V c).flushed 2 t = ((cfg0.win 2).blk t).view.read (Elt Ideal) (linOf V c) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨e0, e1, e2, e3, e4, e5⟩ := lin_idx t
  funext y
  show k0_pay1 (F := Ideal) (iblk0 V c 0 t) (iblk0 V c 1 t) y = linOf V c (((cfg0.win 2).blk t).view.emb y)
  unfold linOf
  refine lin_at (V c main_arg0) (V c main_arg2) (iblk0 V c 0 t) (iblk0 V c 1 t) y (((cfg0.win 2).blk t).view.emb y) ?_ ?_ ?_
  · funext z
    show V c main_arg0 (((cfg0.win 0).blk t).view.emb z) = V c main_arg0 z
    refine congrArg (V c main_arg0) (funext fun a => Fin.ext ?_)
    match a with
    | ⟨0, _⟩ => show win0_0.index t (0 : Fin 2) * 10000 + 1 * (z 0).val = (z 0).val; omega
    | ⟨1, _⟩ => show win0_0.index t (1 : Fin 2) * 128 + 1 * (z 1).val = (z 1).val; omega
  · funext z
    show V c main_arg2 (((cfg0.win 1).blk t).view.emb z) = V c main_arg2 z
    refine congrArg (V c main_arg2) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · funext a; apply Fin.ext
    match a with
    | ⟨0, _⟩ => show win0_2.index t (0 : Fin 2) * 10000 + 1 * (y 0).val = (y 0).val; omega
    | ⟨1, _⟩ => show win0_2.index t (1 : Fin 2) * 128 + 1 * (y 1).val = (y 1).val; omega

/-- An index of the output array is in the point's block iff each coordinate is in the block's range on its axis. -/
theorem lin_mem_blk (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The one block is the whole array. -/
theorem lin_cover (i : S10000x128.Idx) :
    ∃ t : Fin cfg0.N, (cfg0.win 2).flush t = true ∧ i ∈ ((cfg0.win 2).blk t).view.set := by
  refine ⟨t0_0, flush0_2 t0_0, ?_⟩
  rw [lin_mem_blk]
  obtain ⟨e0, e1, e2, e3, e4, e5⟩ := lin_idx t0_0
  have h0 : (i 0).val < 10000 := (i 0).isLt
  have h1 : (i 1).val < 128 := (i 1).isLt
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 128 ≤ (i 1).val ∧ (i 1).val < win0_2.index t0_0 (1 : Fin 2) * 128 + 128; omega

/-- The output array after the region: the transformed features of the arrays at its entry. -/
theorem lin_final (c : Dev nD) : (dat0 V c).arrAt 2 cfg0.N = linOf V c :=
  (dat0 V c).arrAt_eq_of_cover 2 _ (fun t _ => lin_flushed V c t) (lin_cover)

end Cert.GraphConv.Kernel

end
-- ==== Proof.Aggregate.lean ====
/-
  What the aggregation region leaves in its output array.

  The grid is 25 points; point `t` stages rows 400·t … 400·t + 399 of the adjacency (all 10000 columns), the whole
  transformed-feature array and the whole bias row, and writes back rows 400·t … 400·t + 399 of the output. At a point
  the body stores, at row p of the block and feature j,
      max ((Σ_k a[p, k] · w[k, j]) + b[0, j]) 0
  of the staged blocks, so with the blocks read where they sit in their arrays, the written block is the same rows of
      (i, j) ↦ max ((Σ_k V[adjacency][i, k] · V[features][k, j]) + V[bias row][0, j]) 0,
  `V` the buffers at the region's entry. The 25 row blocks tile the 10000 rows (row i belongs to point i / 400), so the
  output array ends at that function.
-/
import proofs.«151774_g7516192768197_cont_9to1c4b_734_2_alg».proof.Proof.Gen.KernelIdeal.Frame
import proofs.«151774_g7516192768197_cont_9to1c4b_734_2_alg».proof.Proof.Payloads
import Idealize.ShloMosaic.Lib.Pipeline.Value

set_option maxRecDepth 16384

noncomputable section

namespace Cert.GraphConv.Kernel

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (V : (c : Dev nD) → (b : Ref sig .tc) → Buf (Elt Ideal) ((c : Thread nD τ).loc b))

theorem origin2' : (![0, 0] : Fin 2 → Nat) = fun _ => 0 := funext fun a => by fin_cases a <;> rfl

/-- The aggregated, biased and clamped features as a function of the buffers at the region's entry. -/
def aggOf (c : Dev nD) : S10000x128.Idx → EReal :=
  fun i => agg (V c main_arg1) (fun k j => V c main_v0 (ix2 k j)) (fun j => V c main_v1 (ix2 (0 : Fin 1) j)) (i 0) (i 1)

/-- The body's stored value at an index `y` of the block, when the staged adjacency rows are rows of `A` (row `y 0` of
    the block is row `i 0` of the array), the other two staged blocks are the arrays `Wv`, `B` themselves, and `y` sits at
    the array index `i`. -/
theorem agg_at (A : S10000x10000.Idx → EReal) (Wv : S10000x128.Idx → EReal) (B : S1x128.Idx → EReal)
    (x0 : Vec Ideal S400x10000 .f32) (x1 : Vec Ideal S10000x128 .f32) (x4 : Vec Ideal S1x128 .f32)
    (y : S400x128.Idx) (i : S10000x128.Idx)
    (h0 : ∀ k : Fin 10000, x0 (ix2 (y 0) k) = A (ix2 (i 0) k)) (h1 : x1 = Wv) (h4 : x4 = B) (hi : (i 1).val = (y 1).val) :
    k1_pay1 (F := Ideal) x0 x1 x4 y = agg A (fun k j => Wv (ix2 k j)) (fun j => B (ix2 (0 : Fin 1) j)) (i 0) (i 1) := by
  subst h1 h4
  refine ((congrArg (k1_pay1 (F := Ideal) x0 x1 x4) (eq_ix2 y)).trans (aggregate_payload x0 x1 x4 (y 0) (y 1))).trans ?_
  unfold agg
  have e : (i 1 : Fin 128) = y 1 := Fin.ext hi
  rw [e]
  refine congrArg (fun s => max (s + x4 (ix2 (0 : Fin 1) (y 1))) (Ideal.ofBits .f32 0x00000000#32)) ?_
  exact Finset.sum_congr rfl fun k _ => by rw [h0 k]

/-- The printed index maps over the 25 points: the adjacency and the output move together down the rows, block index
    the point's number; the features and the bias row stay at block (0, 0). -/
theorem agg_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `aggOf`. -/
theorem agg_flushed (c : Dev nD) (t : Fin cfg1.N) :
    (dat1 V c).flushed 3 t = ((cfg1.win 3).blk t).view.read (Elt Ideal) (aggOf V c) := by
  show (cfg1.win 3).cut (grid1.coords t) ((dat1 V c).after 3 t) = _
  rw [after1_3]
  unfold out1_3
  rw [View.canon_unit_zero origin2']
  simp only [View.ld_unit_zero (S := S400x10000) origin2', View.ld_unit_zero (S := S10000x128) origin2', View.ld_unit_zero (S := S1x128) origin2']
  obtain ⟨e0, e1, e2, e3, e4, e5, e6, e7⟩ := agg_idx t
  funext y
  show k1_pay1 (F := Ideal) (iblk1 V c 0 t) (iblk1 V c 1 t) (iblk1 V c 2 t) y = aggOf V c (((cfg1.win 3).blk t).view.emb y)
  unfold aggOf
  refine agg_at (V c main_arg1) (V c main_v0) (V c main_v1) (iblk1 V c 0 t) (iblk1 V c 1 t) (iblk1 V c 2 t) y
    (((cfg1.win 3).blk t).view.emb y) ?_ ?_ ?_ ?_
  · intro k
    show V c main_arg1 (((cfg1.win 0).blk t).view.emb (ix2 (y 0) k)) = V c main_arg1 (ix2 ((((cfg1.win 3).blk t).view.emb y) 0) k)
    refine congrArg (V c main_arg1) (funext fun a => Fin.ext ?_)
    match a with
    | ⟨0, _⟩ => show win1_0.index t (0 : Fin 2) * 400 + 1 * (y 0).val = win1_3.index t (0 : Fin 2) * 400 + 1 * (y 0).val; omega
    | ⟨1, _⟩ => show win1_0.index t (1 : Fin 2) * 10000 + 1 * k.val = k.val; omega
  · funext z
    show V c main_v0 (((cfg1.win 1).blk t).view.emb z) = V c main_v0 z
    refine congrArg (V c main_v0) (funext fun a => Fin.ext ?_)
    match a with
    | ⟨0, _⟩ => show win1_1.index t (0 : Fin 2) * 10000 + 1 * (z 0).val = (z 0).val; omega
    | ⟨1, _⟩ => show win1_1.index t (1 : Fin 2) * 128 + 1 * (z 1).val = (z 1).val; omega
  · funext z
    show V c main_v1 (((cfg1.win 2).blk t).view.emb z) = V c main_v1 z
    refine congrArg (V c main_v1) (funext fun a => Fin.ext ?_)
    match a with
    | ⟨0, _⟩ => show win1_2.index t (0 : Fin 2) * 1 + 1 * (z 0).val = (z 0).val; omega
    | ⟨1, _⟩ => show win1_2.index t (1 : Fin 2) * 128 + 1 * (z 1).val = (z 1).val; omega
  · show win1_3.index t (1 : Fin 2) * 128 + 1 * (y 1).val = (y 1).val
    omega

/-- An index of the output array is in point `t`'s block iff each coordinate is in the block's range on its axis. -/
theorem agg_mem_blk (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v2).slice (win1_3.rect t)).set ↔ _
  rw [View.set_slice_whole, Rect.mem_set_unit]
  exact Iff.rfl

/-- Row `i` of the output lies in the block of point `i / 400`. -/
theorem agg_cover (i : S10000x128.Idx) :
    ∃ t : Fin cfg1.N, (cfg1.win 3).flush t = true ∧ i ∈ ((cfg1.win 3).blk t).view.set := by
  have h0 : (i 0).val < 10000 := (i 0).isLt
  have h1 : (i 1).val < 128 := (i 1).isLt
  have hN : grid1.N = 25 := N_1
  let t : Fin cfg1.N := ⟨(i 0).val / 400, by show (i 0).val / 400 < grid1.N; rw [hN]; omega⟩
  have ht : t.val = (i 0).val / 400 := rfl
  refine ⟨t, flush1_3 t, ?_⟩
  rw [agg_mem_blk]
  obtain ⟨e0, e1, e2, e3, e4, e5, e6, e7⟩ := agg_idx t
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- The output array after the region: the aggregation of the arrays at its entry. -/
theorem agg_final (c : Dev nD) : (dat1 V c).arrAt 3 cfg1.N = aggOf V c :=
  (dat1 V c).arrAt_eq_of_cover 3 _ (fun t _ => agg_flushed V c t) (agg_cover)

end Cert.GraphConv.Kernel

end
-- ==== Proof.Entry.lean ====
/-
  What each region finds in the buffers it reads.

  The linear transform is entered from the launch memory: the features and the weight as launched. Between the regions
  one host operation recasts the bias vector as a one-row array and writes nothing else. So the aggregation finds: the
  adjacency as launched (no region or operation before it writes it); the transformed features as the first region's
  write-backs left them; and the bias row, whose entry (0, j) is the bias vector's entry j.
-/
import proofs.«151774_g7516192768197_cont_9to1c4b_734_2_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.GraphConv.Kernel

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ) (ρ : Dev nD → PrngReg)

/-- The aggregation finds the adjacency as launched. -/
theorem entry_adjacency (c : Dev nD) : V2 m ρ c main_arg1 = m ((c : Thread nD τ).loc main_arg1) := by
  show StableHlo.after hostOps1 (W1 m ρ c) (Proc.devRef .tc main_arg1) = _
  after_results
  exact W1_of_ne m ρ c main_arg1 (by decide)

/-- The aggregation finds the transformed features as the first region's write-backs left them. -/
theorem entry_features (c : Dev nD) : V2 m ρ c main_v0 = (dat0 (V0 m ρ) c).arrAt 2 cfg0.N := by
  show StableHlo.after hostOps1 (W1 m ρ c) (Proc.devRef .tc main_v0) = _
  after_results
  exact W1_arr m ρ c 2

/-- The aggregation finds the bias vector recast as one row. -/
theorem entry_bias (c : Dev nD) :
    V2 m ρ c main_v1 = shapeCast S1x128 (m ((c : Thread nD τ).loc main_arg3)) shapeCasts_S128_S1x128 := by
  show StableHlo.after hostOps1 (W1 m ρ c) (Proc.devRef .tc main_v1) = _
  after_results
  rw [W1_of_ne m ρ c main_arg3 (by decide)]
  rfl

/-- Entry (0, j) of the bias row is entry j of the bias vector. -/
theorem entry_bias_apply (c : Dev nD) (j : Fin 128) :
    V2 m ρ c main_v1 (ix2 (0 : Fin 1) j) = m ((c : Thread nD τ).loc main_arg3) (ix1 j) := by
  rw [entry_bias]
  exact shapeCast_a_1a_apply (m ((c : Thread nD τ).loc main_arg3)) shapeCasts_S128_S1x128 (0 : Fin 1) j

end Cert.GraphConv.Kernel

end
-- ==== Proof.KernelValue.lean ====
/-
  The kernel's result array is the layer of the four arguments.

  The aggregation region leaves (i, j) ↦ max ((Σ_k A[i, k] · w[k, j]) + b'[0, j]) 0 of the buffers it finds. It finds the
  adjacency A as launched, the bias row b' with b'[0, j] = b[j], and the transformed features w as the linear-transform
  region left them, w[k, j] = Σ_l x[k, l] · W[j, l] of the features and the weight as launched. Substituting, the result is
  the specification's `layer adj x W b`.
-/
import proofs.«151774_g7516192768197_cont_9to1c4b_734_2_alg».proof.Proof.KernelRun
import proofs.«151774_g7516192768197_cont_9to1c4b_734_2_alg».proof.Proof.Linear
import proofs.«151774_g7516192768197_cont_9to1c4b_734_2_alg».proof.Proof.Aggregate
import proofs.«151774_g7516192768197_cont_9to1c4b_734_2_alg».proof.Proof.Entry

set_option maxRecDepth 16384

noncomputable section

namespace Cert.GraphConv.Kernel

open Cert.KernelIdeal Cert.KernelIdeal.Gen Idealize.ShloMosaic Idealize.ShloMosaic.TcCoe Idealize.SL.Sem
open Idealize.ShloMosaic.ValueIdx Cert.GraphConv

variable (m : (ℓ : Loc nD τ sig) → Buf (Elt Ideal) ℓ) (ρ : Dev nD → PrngReg)

/-- The transformed features the aggregation finds are the specification's linear transform of the launched arrays. -/
theorem features_found (c : Dev nD) :
    (fun (k : Fin 10000) (j : Fin 128) => V2 m ρ c main_v0 (ix2 k j))
      = lin (m ((c : Thread nD τ).loc main_arg0)) (m ((c : Thread nD τ).loc main_arg2)) := by
  funext k j
  exact congrFun ((entry_features m ρ c).trans (lin_final (V0 m ρ) c)) (ix2 k j)

/-- The bias row the aggregation finds, read along its one row, is the launched bias vector. -/
theorem bias_found (c : Dev nD) :
    (fun (j : Fin 128) => V2 m ρ c main_v1 (ix2 (0 : Fin 1) j)) = fun j => m ((c : Thread nD τ).loc main_arg3) (ix1 j) :=
  funext fun j => entry_bias_apply m ρ c j

/-- The result array after the run is the layer of the launched arguments. -/
theorem result_value (c : Dev nD) :
    (dat1 (V2 m ρ) c).arrAt 3 cfg1.N
      = layer (m ((c : Thread nD τ).loc main_arg1)) (m ((c : Thread nD τ).loc main_arg0))
          (m ((c : Thread nD τ).loc main_arg2)) (m ((c : Thread nD τ).loc main_arg3)) := by
  rw [agg_final]
  funext i
  unfold aggOf layer
  rw [entry_adjacency, features_found, bias_found]

/-- Every weakly fair execution of the idealized kernel's @main terminates, nothing faulting, with the result array at the
    layer of the launched arguments and the arguments unchanged. -/
theorem run : θ_run defs (onTc (τ := τ) (main (F := Ideal))) ⟨m, fun _ => 0, ρ⟩ (fun r => ∀ c : Dev nD,
      r.2.mem ((c.tc : Thread nD τ).loc main_v2)
        = layer (m ((c.tc : Thread nD τ).loc main_arg1)) (m ((c.tc : Thread nD τ).loc main_arg0))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (run_named (F := Ideal) m ρ)

end Cert.GraphConv.Kernel

end
-- ==== Proof.RefIsSpec.lean ====
/-
  The reference computes the layer of the specification.

  Its nine host operations are, in order: the weight transposed; the features times that transpose (one contraction over
  the 128 input features); the adjacency times the result (one contraction over the 10000 nodes); the bias laid out as a
  row and repeated down the 10000 rows; their sum; and the maximum with a zero splat. Read at an index (p, q) through the
  generated per-operation lemmas this is
      max ((Σ_k adj[p, k] · Σ_l x[k, l] · W[q, l]) + b[q]) 0,
  which is the specification's `layer` verbatim: only the index functions the layout operations compose have to be
  identified with the plain coordinates.
-/
import proofs.«151774_g7516192768197_cont_9to1c4b_734_2_alg».proof.Proof.Gen.ReferenceIdeal.Read
import proofs.«151774_g7516192768197_cont_9to1c4b_734_2_alg».proof.Proof.Spec

noncomputable section

namespace Cert.GraphConv.Reference

open Cert.ReferenceIdeal Cert.ReferenceIdeal.Read Idealize.ShloMosaic Idealize.ShloMosaic.ValueIdx Cert.GraphConv

/-- The adjacency operand of the outer contraction at output (p, q), contraction index k, is entry (p, k). -/
theorem outer_lhs (p : Fin 10000) (q : Fin 128) (k : Fin 10000) : lidx_main_v2 (ix2 p q) k = ix2 p k :=
  funext fun a => Fin.ext (by match a with | ⟨0, _⟩ => rfl | ⟨1, _⟩ => rfl)

/-- The transformed-feature operand of the outer contraction at output (p, q), contraction index k, is entry (k, q). -/
theorem outer_rhs (p : Fin 10000) (q : Fin 128) (k : Fin 10000) : ridx_main_v2 (ix2 p q) k = ix2 k q :=
  funext fun a => Fin.ext (by match a with | ⟨0, _⟩ => rfl | ⟨1, _⟩ => rfl)

/-- The feature operand of the inner contraction at output (k, q), contraction index l, is entry (k, l). -/
theorem inner_lhs (k : Fin 10000) (q : Fin 128) (l : Fin 128) : lidx_main_v1 (ix2 k q) l = ix2 k l :=
  funext fun a => Fin.ext (by match a with | ⟨0, _⟩ => rfl | ⟨1, _⟩ => rfl)

/-- The transposed-weight operand of the inner contraction at output (k, q), contraction index l, is entry (l, q) … -/
theorem inner_rhs (k : Fin 10000) (q : Fin 128) (l : Fin 128) : ridx_main_v1 (ix2 k q) l = ix2 l q :=
  funext fun a => Fin.ext (by match a with | ⟨0, _⟩ => rfl | ⟨1, _⟩ => rfl)

/-- … which the transpose reads from the weight's entry (q, l). -/
theorem transposed (l q : Fin 128) : idx_main_v0 (ix2 l q) = ix2 q l :=
  funext fun a => Fin.ext (by match a with | ⟨0, _⟩ => rfl | ⟨1, _⟩ => rfl)

/-- The bias repeated down the rows, at (p, q), is the bias row's entry (0, q) … -/
theorem bias_row (p : Fin 10000) (q : Fin 128) : idx_main_v4 (ix2 p q) = ix2 (0 : Fin 1) q :=
  funext fun a => Fin.ext (by match a with | ⟨0, _⟩ => rfl | ⟨1, _⟩ => rfl)

/-- … which is the bias vector's entry q. -/
theorem bias_entry (q : Fin 128) : idx_main_v3 (ix2 (0 : Fin 1) q) = ix1 q :=
  funext fun a => Fin.ext (by match a with | ⟨0, _⟩ => rfl)

/-- The transformed features, as the reference computes them, are the specification's linear transform. -/
theorem transformed_eq (x0 : (⟨S10000x128, .f32⟩ : BufTy).Contents (Elt Ideal)) (x2 : (⟨S128x128, .f32⟩ : BufTy).Contents (Elt Ideal))
    (k : Fin 10000) (q : Fin 128) : val_main_v1 (F := Ideal) x0 x2 (ix2 k q) = lin x0 x2 k q := by
  rw [val_main_v1_apply]
  unfold lin
  refine Finset.sum_congr rfl fun l _ => ?_
  rw [val_main_v0_apply, inner_lhs, inner_rhs, transposed]

/-- The reference's result, as a function of its four arguments, is the layer. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v7 (F := Ideal) x0 x1 x2 x3 = layer x1 x0 x2 x3 := by
  funext i
  obtain ⟨p, q, rfl⟩ : ∃ (p : Fin 10000) (q : Fin 128), i = ix2 p q := ⟨i 0, i 1, eq_ix2 i⟩
  rw [val_main_v7_apply, val_main_v5_apply, val_main_v2_apply, val_main_v4_apply, val_main_v3_apply, val_main_v6_apply,
    val_main_cst_apply, bias_row, bias_entry]
  show max ((∑ k : Fin 10000, x1 (lidx_main_v2 (ix2 p q) k) * val_main_v1 (F := Ideal) x0 x2 (ridx_main_v2 (ix2 p q) k)) + x3 (ix1 q))
      (Ideal.ofBits .f32 0x00000000#32) = agg x1 (lin x0 x2) (fun j => x3 (ix1 j)) p q
  unfold agg
  refine congrArg (fun s => max (s + x3 (ix1 q)) (Ideal.ofBits .f32 0x00000000#32)) ?_
  refine Finset.sum_congr rfl fun k _ => ?_
  rw [outer_lhs, outer_rhs, transformed_eq]

end Cert.GraphConv.Reference

end
-- ==== Proof.lean ====
/-
  The graph-convolution kernel against its reference: out = max (adj · (x · Wᵀ) + b) 0.

  The kernel is two regions: a gridless one that writes the transformed features x · Wᵀ, and one over 25 row blocks of the
  adjacency that multiplies 400 adjacency rows with the transformed features, adds the bias row and clamps at zero. The
  reference is the same three steps as host operations. Over the extended reals both matrix products are plain sums in the
  same grouping, so the two results are the same function of the arguments, index by index, with no appeal to finiteness:
  `Cert.GraphConv.layer`. The idealized kernel is the kernel's own text read over the extended reals (no operation was
  rewritten), so the idealization conjunct is trivial; each frame is its program's run with the result dropped.
-/
import proofs.«151774_g7516192768197_cont_9to1c4b_734_2_alg».proof.Defs
import proofs.«151774_g7516192768197_cont_9to1c4b_734_2_alg».proof.Proof.Gen.Kernel
import proofs.«151774_g7516192768197_cont_9to1c4b_734_2_alg».proof.Proof.Gen.Kernel.Frame
import proofs.«151774_g7516192768197_cont_9to1c4b_734_2_alg».proof.Proof.Gen.KernelIdeal
import proofs.«151774_g7516192768197_cont_9to1c4b_734_2_alg».proof.Proof.Gen.KernelIdeal.Frame
import proofs.«151774_g7516192768197_cont_9to1c4b_734_2_alg».proof.Proof.Gen.ReferenceIdeal
import proofs.«151774_g7516192768197_cont_9to1c4b_734_2_alg».proof.Proof.Gen.Pre_finite_inputs
import proofs.«151774_g7516192768197_cont_9to1c4b_734_2_alg».proof.Proof.Gen.ReferenceIdeal.Run
import proofs.«151774_g7516192768197_cont_9to1c4b_734_2_alg».proof.Proof.Gen.ReferenceIdeal.Read
import proofs.«151774_g7516192768197_cont_9to1c4b_734_2_alg».proof.Proof.KernelValue
import proofs.«151774_g7516192768197_cont_9to1c4b_734_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

theorem frame_reference_ideal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end, from memories agreeing on the arguments, with the result array at the layer of the
    arguments: the kernel by its two regions' values, the reference by its operations read at an index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.GraphConv.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
